-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x40960 .f32) (main_arg1 : FVec F S4096x40960 .f32) (main_arg2 : FVec F S256x40960 .f32) (main_arg3 : FVec F S256 .f32) (main_arg4 : FVec F S1x512 .f32) (main_arg5 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S40960x256 : Shape := ⟨2, ![40960, 256]⟩
abbrev S1x256 : Shape := ⟨2, ![1, 256]⟩
abbrev S1x1 : Shape := ⟨2, ![1, 1]⟩
abbrev S4096x1 : Shape := ⟨2, ![4096, 1]⟩
abbrev S1024x512 : Shape := ⟨2, ![1024, 512]⟩
abbrev S1024x1 : Shape := ⟨2, ![1024, 1]⟩
abbrev S1024x256 : Shape := ⟨2, ![1024, 256]⟩
abbrev S512x256 : Shape := ⟨2, ![512, 256]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S1x512, .f32⟩
  | .hbm, ⟨5, _⟩ => ⟨S1, .f32⟩
  | .hbm, ⟨6, _⟩ => ⟨S40960x256, .f32⟩
  | .hbm, ⟨7, _⟩ => ⟨S40960x256, .bf16⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x1, .f32⟩
  | .hbm, ⟨12, _⟩ => ⟨S4096x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S40960x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | .local _ .vmem, ⟨12, _⟩ => ⟨S1024x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 80], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_4 : Index := 0#32
  ![v9.toNat, 0]
def k0_cond2 (i : grid0.Coords) : BitVec 1 :=
  let arg1 : BitVec 32 := BitVec.ofNat 32 (i 1).val
  let c79_i32 : BitVec 32 := 79#32
  let v24 : BitVec 1 := Scalar.cmpi .eq arg1 c79_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S40960x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S256x40960_S40960x256_1_0 : S256x40960.Transposes [1, 0] S40960x256
  bitsLt_bf16_f32 : FTy.bits .bf16 < FTy.bits .f32
  shapeCasts_S256_S1x256 : S256.ShapeCasts S1x256
  slices_S1x512_S1x256_0_0 : S1x512.Slices ![0, 0] S1x256
  slices_S1x512_S1x256_0_256 : S1x512.Slices ![0, 256] S1x256
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x512_S512x256_S1024x256_1_0_0_1_n_n_wf : DotDims.WF S1024x512 S512x256 S1024x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S40960x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x40960.size a
  hwx0_0 : ∀ i : grid0.Coords, EltTy.bits .f32 = 32 ∨ (Rect.block (s := S4096x40960) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x40960.size a
  hwx0_1 : ∀ i : grid0.Coords, EltTy.bits .f32 = 32 ∨ (Rect.block (s := S4096x40960) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40960x256.size a ≤ S40960x256.size a
  hwx0_2 : ∀ i : grid0.Coords, EltTy.bits .bf16 = 32 ∨ (Rect.block (s := S40960x256) S40960x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S40960x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x1 : Shape := ⟨2, ![512, 1]⟩
abbrev S4096x1 : Shape := ⟨2, ![4096, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S1x512, .f32⟩
  | .hbm, ⟨5, _⟩ => ⟨S1, .f32⟩
  | .hbm, ⟨6, _⟩ => ⟨S40960x256, .f32⟩
  | .hbm, ⟨7, _⟩ => ⟨S4096x256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S40960x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x512, .f32⟩
  | .hbm, ⟨33, _⟩ => ⟨S512x1, .f32⟩
  | .hbm, ⟨34, _⟩ => ⟨S4096x1, .f32⟩
  | .hbm, ⟨35, _⟩ => ⟨S1x1, .f32⟩
  | .hbm, ⟨36, _⟩ => ⟨S4096x1, .f32⟩
  | .hbm, ⟨37, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S1x512_S512x1_1_0 : S1x512.Transposes [1, 0] S512x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x1_S4096x1_1_0_0_1_n_n_wf : DotDims.WF S4096x512 S512x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.Pieces.lean ====
/-
  What one grid point's body leaves behind, as values.

  At every point the body adds, into each of two running blocks of 1024 x 256 partial sums (one per feature matrix), the
  product of the point's 1024 x 512 block of features with the 512 x 256 slab of weights that the point's position
  along the feature axis selects. At the first point of a row of the grid the running blocks are first set to zero; at
  the last point the clipped, weighted row sums of the two finished blocks are written to the output block.
  Here each of these is read back from the body's stores as one value: the payload of the covering store, applied to
  the contents of the buffers the body loaded (the weights' slab being a sub-rectangle of the resident weight array).
-/
import proofs.«105598_j42958262895064_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

variable (c : Dev nD) (i : grid0.Coords)
  (arg2 : Memref sig .tc .vmem S1024x512 .f32) (harg2 : arg2.IsWhole)
  (arg3 : Memref sig .tc .vmem S1024x512 .f32) (harg3 : arg3.IsWhole)
  (arg4 : Memref sig .tc .vmem S40960x256 .bf16) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x1 .f32) (harg8 : arg8.IsWhole)
  (arg9 : Memref sig .tc .vmem S1024x1 .f32) (harg9 : arg9.IsWhole)
  (arg10 : Memref sig .tc .vmem S1024x256 .f32) (harg10 : arg10.IsWhole)
  (arg11 : Memref sig .tc .vmem S1024x256 .f32) (harg11 : arg11.IsWhole)
  (x0 x1 : Vec F S1024x512 .f32) (x2 : Vec F S40960x256 .bf16) (x3 x4 x5 : Vec F S1x256 .f32) (x6 : Vec F S1x1 .f32)
  (xs0 xs1 : Vec F S1024x256 .f32)

theorem hz : (![0, 0] : Fin 2 → Nat) = fun _ => 0 := funext fun a => by fin_cases a <;> rfl

/-- The slab of the resident weight array that the point at grid coordinates `i` multiplies by: rows
    `512 · i₁ … 512 · i₁ + 511`, all 256 columns. -/
abbrev slab (i : grid0.Coords) (x2 : Vec F S40960x256 .bf16) : Vec F S512x256 .bf16 :=
  View.ld x2 (Rect.unit (s := S40960x256) (k0_off1 i) S512x256.size (k0_off1_inb i))

/-- The first point of a row sets the first running block to zero and adds the product into it. -/
theorem first_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay4 x0 (slab i x2) k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz] <;> rfl

/-- … and likewise the second. -/
theorem first_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay5 x1 (slab i x2) k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz] <;> rfl

/-- A middle point adds the product into the first running block -/
theorem mid_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 (slab i x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz]

/-- … and into the second. -/
theorem mid_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 x1 (slab i x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz]

/-- The last point of a row adds the product into the first running block, -/
theorem last_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 (slab i x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz] <;> rfl

/-- into the second, -/
theorem last_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 x1 (slab i x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz] <;> rfl

/-- and writes the output block: the epilogue of the two blocks it has just finished. -/
theorem last_out (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay6 x3 (k0_pay4 x0 (slab i x2) xs0) (k0_pay5 x1 (slab i x2) xs1) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz, View.readCov_unit_zero (S := S1024x256) _ hz, View.readCov_unit_zero (S := S1024x256) _ hz]
  simp only [View.readAt_eq_ld, harg2.read_unread, harg3.read_unread, harg4.read_unread, harg5.read_unread, harg6.read_unread,
    harg7.read_unread, harg8.read_unread, harg10.read_unread, harg11.read_unread,
    View.ld_unit_zero (S := S1024x512) hz, View.ld_unit_zero (S := S1024x256) hz, View.ld_unit_zero (S := S1x256) hz,
    View.ld_unit_zero (S := S1x1) hz] <;> rfl

end Cert.KernelIdeal.Pieces

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibTiles.lean ====
/-
  A sum over the rows of a long array, taken tile by tile.

  The `a * b` rows of an array are the rows `t * b + r` of its `a` tiles of `b` rows each (`t < a`, `r < b`): the row
  number written in base `b`. A sum over all rows is therefore the sum over the tiles of the sums over each tile's rows.
  This is a re-indexing of a finite sum in a commutative monoid; it needs no law beyond commutativity and associativity
  of the sum, so it holds of the extended reals as it does of the reals.
-/
import Mathlib.Algebra.BigOperators.Fin
import Mathlib.Logic.Equiv.Fin.Basic

namespace Cert.SumSplit

/-- Row `r` of tile `t` is a row of the whole array. -/
theorem tile_lt {a b : ℕ} (t : Fin a) (r : Fin b) : t.val * b + r.val < a * b := by
  have h1 : t.val * b + r.val < t.val * b + b := Nat.add_lt_add_left r.isLt _
  have h2 : t.val * b + b = (t.val + 1) * b := (Nat.succ_mul t.val b).symm
  have h3 : (t.val + 1) * b ≤ a * b := Nat.mul_le_mul_right b t.isLt
  omega

/-- Row `r` of tile `t`, as a row of the array of `n = a * b` rows. -/
def row {a b n : ℕ} (h : a * b = n) (t : Fin a) (r : Fin b) : Fin n := ⟨t.val * b + r.val, h ▸ tile_lt t r⟩

@[simp] theorem row_val {a b n : ℕ} (h : a * b = n) (t : Fin a) (r : Fin b) : (row h t r).val = t.val * b + r.val := rfl

/-- A sum over `n = a * b` rows is the sum, over the `a` tiles, of the sums over the `b` rows of each. -/
theorem sum_tiles {M : Type*} [AddCommMonoid M] {a b n : ℕ} (h : a * b = n) (g : Fin n → M) :
    ∑ m, g m = ∑ t : Fin a, ∑ r : Fin b, g (row h t r) := by
  subst h
  rw [← (finProdFinEquiv (m := a) (n := b)).sum_comp g, Fintype.sum_prod_type]
  refine Finset.sum_congr rfl fun t _ => Finset.sum_congr rfl fun r _ => congrArg g (Fin.ext ?_)
  show r.val + b * t.val = t.val * b + r.val
  rw [Nat.mul_comm, Nat.add_comm]

end Cert.SumSplit
-- ==== Proof.Spec.lean ====
/-
  The function both programs compute, over the extended reals.

  A batch row `b` of each of two feature matrices `x` (4096 rows of 40960 features) is sent through one linear layer
  with 256 outputs, `Σ_j x (b, j) · w (h, j) + bias h`, and clipped to the interval [0, 1]; the two clipped rows are
  then weighed by the two halves of one row of 512 output weights, summed, and an output bias is added:

    out (b, 0) = (Σ_h clip₁ (b, h) · ow (0, h) + Σ_h clip₂ (b, h) · ow (0, 256 + h)) + ob 0.

  The clip's two bounds are kept as the words both programs print (`0x00000000`, `0x3F800000`): the same word on both
  sides is never evaluated. The only law used between the two programs' spellings of this function is that a finite sum
  in a commutative monoid may be regrouped (here: a sum over 40960 features taken 512 at a time, and a sum over 512
  weights taken as two halves), which holds of the extended reals without any finiteness assumption.
-/
import Idealize.ShloMosaic.PureOps.Ideal
import Idealize.ShloMosaic.Lib.ValueIdx
import proofs.«105598_j42958262895064_2_alg».proof.Proof.LibTiles

noncomputable section

open scoped BigOperators

namespace Cert.Spec

open Idealize.ShloMosaic Idealize.ShloMosaic.ValueIdx

/-- An entry of a rank-2 array named by natural numbers; outside the array it reads `0` (never used there). -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

theorem at2_val {n0 n1 : ℕ} (x : (⟨2, ![n0, n1]⟩ : Shape).Idx → EReal) (a : Fin n0) (b : Fin n1) :
    at2 x a.val b.val = x (ix2 a b) := by
  unfold at2
  rw [dif_pos ⟨a.isLt, b.isLt⟩]

theorem at2_of_lt {n0 n1 : ℕ} (x : (⟨2, ![n0, n1]⟩ : Shape).Idx → EReal) (a b : ℕ) (ha : a < n0) (hb : b < n1) :
    at2 x a b = x (ix2 ⟨a, ha⟩ ⟨b, hb⟩) := by
  unfold at2
  rw [dif_pos ⟨ha, hb⟩]

/-- The linear layer before its bias: row `b` of `x` against row `h` of `w`. -/
def lin (x : (⟨2, ![4096, 40960]⟩ : Shape).Idx → EReal) (w : (⟨2, ![256, 40960]⟩ : Shape).Idx → EReal)
    (b : Fin 4096) (h : Fin 256) : EReal :=
  ∑ j : Fin 40960, x (ix2 b j) * w (ix2 h j)

/-- The clip to [0, 1], the bounds as the printed words. -/
def clip01 (v : EReal) : EReal :=
  min (Ideal.ofBits .f32 0x3F800000#32) (max (Ideal.ofBits .f32 0x00000000#32) v)

/-- One clipped hidden value. -/
def hid (x : (⟨2, ![4096, 40960]⟩ : Shape).Idx → EReal) (w : (⟨2, ![256, 40960]⟩ : Shape).Idx → EReal)
    (bias : (⟨1, ![256]⟩ : Shape).Idx → EReal) (b : Fin 4096) (h : Fin 256) : EReal :=
  clip01 (lin x w b h + bias (ix1 h))

/-- The result for batch row `b`. -/
def Gat (x0 x1 : (⟨2, ![4096, 40960]⟩ : Shape).Idx → EReal) (w : (⟨2, ![256, 40960]⟩ : Shape).Idx → EReal)
    (bias : (⟨1, ![256]⟩ : Shape).Idx → EReal) (ow : (⟨2, ![1, 512]⟩ : Shape).Idx → EReal)
    (ob : (⟨1, ![1]⟩ : Shape).Idx → EReal) (b : Fin 4096) : EReal :=
  ((∑ h : Fin 256, hid x0 w bias b h * ow (ix2 (0 : Fin 1) ⟨h.val, by have := h.isLt; omega⟩))
    + (∑ h : Fin 256, hid x1 w bias b h * ow (ix2 (0 : Fin 1) ⟨256 + h.val, by have := h.isLt; omega⟩)))
  + ob (ix1 (0 : Fin 1))

/-- THE RESULT, index by index: a column of 4096 rows. -/
def G (x0 x1 : (⟨2, ![4096, 40960]⟩ : Shape).Idx → EReal) (w : (⟨2, ![256, 40960]⟩ : Shape).Idx → EReal)
    (bias : (⟨1, ![256]⟩ : Shape).Idx → EReal) (ow : (⟨2, ![1, 512]⟩ : Shape).Idx → EReal)
    (ob : (⟨1, ![1]⟩ : Shape).Idx → EReal) : (⟨2, ![4096, 1]⟩ : Shape).Idx → EReal := fun i =>
  Gat x0 x1 w bias ow ob (i 0)

/-- The linear layer's sum over 40960 features, taken as 80 tiles of 512: tile `s` holds features `512 s + j`. -/
theorem lin_tiles (x : (⟨2, ![4096, 40960]⟩ : Shape).Idx → EReal) (w : (⟨2, ![256, 40960]⟩ : Shape).Idx → EReal)
    (b : Fin 4096) (h : Fin 256) :
    lin x w b h = ∑ s ∈ Finset.range 80, ∑ j : Fin 512, at2 x b.val (512 * s + j.val) * at2 w h.val (512 * s + j.val) := by
  unfold lin
  rw [Cert.SumSplit.sum_tiles (a := 80) (b := 512) (n := 40960) (by decide), Finset.sum_range]
  refine Finset.sum_congr rfl fun s _ => Finset.sum_congr rfl fun j _ => ?_
  have hs : s.val * 512 + j.val < 40960 := by have := s.isLt; have := j.isLt; omega
  have e : 512 * s.val + j.val = s.val * 512 + j.val := by omega
  rw [e, at2_of_lt x _ _ b.isLt hs, at2_of_lt w _ _ h.isLt hs]
  rfl

/-- A sum over 512 weights as the sum over its first 256 and the sum over its last 256. -/
theorem sum_halves {M : Type*} [AddCommMonoid M] (g : Fin 512 → M) :
    ∑ k : Fin 512, g k = (∑ h : Fin 256, g ⟨h.val, by have := h.isLt; omega⟩)
      + ∑ h : Fin 256, g ⟨256 + h.val, by have := h.isLt; omega⟩ := by
  exact Fin.sum_univ_add (a := 256) (b := 256) g

end Cert.Spec

end
-- ==== Proof.PayIdeal.lean ====
/-
  The body's arithmetic at one index, over the extended reals.

  The running blocks start at zero. One step adds to entry (r, h) of a running block the sum over the step's 512
  features j of x (r, j) · w (j, h): the matrix unit's product into a zero accumulator is that sum, and rounding the
  features to a narrower format first changes nothing over the extended reals. The epilogue, at row r of the output
  block, clips each of the row's 256 entries of a finished block plus the layer's bias to [0, 1], weighs it, sums the
  row (a lane sum is the sum over the lane coordinate), does so for both blocks, adds the two sums and the output bias.
-/
import proofs.«105598_j42958262895064_2_alg».proof.Proof.Gen.KernelIdeal.Skeleton
import proofs.«105598_j42958262895064_2_alg».proof.Proof.LibDot
import proofs.«105598_j42958262895064_2_alg».proof.Proof.LibColumn
import proofs.«105598_j42958262895064_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdeal

open Cert.KernelIdeal Cert.KernelIdeal.Gen Idealize.ShloMosaic Idealize.ShloMosaic.ValueIdx

/-- A lane sum of an `[a, b]` array along its second axis reads, at row `r`, the sum over the columns of that row. -/
theorem rowsum_apply {a b : ℕ} {φ : FTy} (src : FVec Ideal ⟨2, ![a, b]⟩ φ) (acc : BitVec φ.bits)
    (hred : (⟨2, ![a, b]⟩ : Shape).Reduces [1] ⟨1, ![a]⟩) (hφ : FKind.Formats φ) (hacc : acc = FKind.add.neutral φ hφ)
    (r : Fin a) :
    multiReduction .add [1] ⟨1, ![a]⟩ src acc hred hφ hacc (ix1 r) = ∑ k : Fin b, src (ix2 r k) := by
  refine (Ideal.multiReduction_add_single src acc hred hφ hacc (ix1 r)).trans ?_
  refine Finset.sum_congr rfl fun k _ => congrArg src ?_
  funext d
  match d with
  | ⟨0, _⟩ => rfl
  | ⟨1, _⟩ => rfl

/-- The block the first point of a row stores before it accumulates: zero everywhere. -/
theorem zero_first (y : S1024x256.Idx) : k0_pay1 (F := Ideal) y = 0 := by
  unfold k0_pay1
  simp only [shapeCast_self]
  exact Ideal.ofBits_zero_f32

theorem zero_second (y : S1024x256.Idx) : k0_pay2 (F := Ideal) y = 0 := by
  unfold k0_pay2
  simp only [shapeCast_self]
  exact Ideal.ofBits_zero_f32

/-- One accumulation step of the first running block at (r, h). -/
theorem step_first (v3 : Vec Ideal S1024x512 .f32) (v10 : Vec Ideal S512x256 .bf16) (v12 : Vec Ideal S1024x256 .f32)
    (r : Fin 1024) (h : Fin 256) :
    k0_pay4 (F := Ideal) v3 v10 v12 (ix2 r h) = v12 (ix2 r h) + ∑ j : Fin 512, v3 (ix2 r j) * v10 (ix2 j h) := by
  unfold k0_pay4 k0_pay3
  simp only [shapeCast_self]
  refine (congrArg (fun z => v12 (ix2 r h) + z)
    (Ideal.matmul_constant_zero_apply dot_S1024x512_S512x256_S1024x256_1_0_0_1_n_n none (truncf .bf16 v3 bitsLt_bf16_f32) v10 (ix2 r h))).trans ?_
  exact congrArg (fun z => v12 (ix2 r h) + z)
    (PlainDot.sum_eq dot_S1024x512_S512x256_S1024x256_1_0_0_1_n_n rfl rfl rfl rfl rfl rfl v3 v10 r h)

/-- One accumulation step of the second running block at (r, h). -/
theorem step_second (v5 : Vec Ideal S1024x512 .f32) (v10 : Vec Ideal S512x256 .bf16) (v18 : Vec Ideal S1024x256 .f32)
    (r : Fin 1024) (h : Fin 256) :
    k0_pay5 (F := Ideal) v5 v10 v18 (ix2 r h) = v18 (ix2 r h) + ∑ j : Fin 512, v5 (ix2 r j) * v10 (ix2 j h) := by
  unfold k0_pay5 k0_pay3
  simp only [shapeCast_self]
  refine (congrArg (fun z => v18 (ix2 r h) + z)
    (Ideal.matmul_constant_zero_apply dot_S1024x512_S512x256_S1024x256_1_0_0_1_n_n none (truncf .bf16 v5 bitsLt_bf16_f32) v10 (ix2 r h))).trans ?_
  exact congrArg (fun z => v18 (ix2 r h) + z)
    (PlainDot.sum_eq dot_S1024x512_S512x256_S1024x256_1_0_0_1_n_n rfl rfl rfl rfl rfl rfl v5 v10 r h)

/-- The epilogue at row r of the output block. -/
theorem epilogue (v27 : Vec Ideal S1x256 .f32) (v29 v36 : Vec Ideal S1024x256 .f32) (v43 v47 : Vec Ideal S1x256 .f32)
    (v58 : Vec Ideal S1x1 .f32) (r : Fin 1024) (u : Fin 1) :
    k0_pay6 (F := Ideal) v27 v29 v36 v43 v47 v58 (ix2 r u)
      = ((∑ h : Fin 256, Cert.Spec.clip01 (v29 (ix2 r h) + v27 (ix2 (0 : Fin 1) h)) * v43 (ix2 (0 : Fin 1) h))
          + (∑ h : Fin 256, Cert.Spec.clip01 (v36 (ix2 r h) + v27 (ix2 (0 : Fin 1) h)) * v47 (ix2 (0 : Fin 1) h)))
        + v58 (ix2 (0 : Fin 1) (0 : Fin 1)) := by
  have hu : u = 0 := Subsingleton.elim _ _
  subst hu
  unfold k0_pay6
  simp only [shapeCast_self, ValueIdx.addf_apply, Cert.LibColumn.shapeCast_a_a1_apply, broadcastTo_1b_ab_apply]
  refine congrArg₂ (· + ·) (congrArg₂ (· + ·) ?_ ?_) rfl
  · refine (rowsum_apply _ _ _ _ _ r).trans (Finset.sum_congr rfl fun h _ => ?_)
    simp only [ValueIdx.mulf_apply, ValueIdx.minimumf_apply, ValueIdx.maximumf_apply, ValueIdx.addf_apply,
      ValueIdx.broadcast_apply, broadcastTo_1b_ab_apply]
    rfl
  · refine (rowsum_apply _ _ _ _ _ r).trans (Finset.sum_congr rfl fun h _ => ?_)
    simp only [ValueIdx.mulf_apply, ValueIdx.minimumf_apply, ValueIdx.maximumf_apply, ValueIdx.addf_apply,
      ValueIdx.broadcast_apply, broadcastTo_1b_ab_apply]
    rfl

end Cert.KernelIdeal.PayIdeal

end
-- ==== Proof.Windows.lean ====
/-
  What the body's input blocks hold at a grid point, in terms of the argument arrays.

  The grid has 4 x 80 points; point number t sits at row-tile t / 80 and feature-tile t % 80. There the two feature
  windows hold rows 1024 (t / 80) … + 1023 and features 512 (t % 80) … + 511 of their matrices. The five other windows
  never move: the transposed weights (entry (j, h) is entry (h, j) of the weight matrix; its rounding to a narrower format
  is the identity over the extended reals) of which the body takes the slab of rows 512 (t % 80) …, the layer's bias
  as one row, the two halves of the output weights' row, and the output bias as a 1 x 1 array.
-/
import proofs.«105598_j42958262895064_2_alg».proof.Proof.Gen.KernelIdeal.Frame
import proofs.«105598_j42958262895064_2_alg».proof.Proof.Pieces
import proofs.«105598_j42958262895064_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.Windows

open Cert.KernelIdeal Cert.KernelIdeal.Gen Idealize.ShloMosaic.ValueIdx

variable (m : (ℓ : Loc nD τ sig) → Buf (Elt Ideal) ℓ)

/-- The six argument arrays on core `c`, as functions of their indices. -/
abbrev X0 (c : Dev nD) : S4096x40960.Idx → EReal := m ((c : Thread nD τ).loc main_arg0)
abbrev X1 (c : Dev nD) : S4096x40960.Idx → EReal := m ((c : Thread nD τ).loc main_arg1)
abbrev W (c : Dev nD) : S256x40960.Idx → EReal := m ((c : Thread nD τ).loc main_arg2)
abbrev Bias (c : Dev nD) : S256.Idx → EReal := m ((c : Thread nD τ).loc main_arg3)
abbrev OW (c : Dev nD) : S1x512.Idx → EReal := m ((c : Thread nD τ).loc main_arg4)
abbrev OB (c : Dev nD) : S1.Idx → EReal := m ((c : Thread nD τ).loc main_arg5)

/-- Where each window's block sits at point `t`, and where the weights' slab starts: decided over the 320 points. -/
theorem idx_facts : ∀ t : Fin cfg0.N,
    win0_0.index t (0 : Fin 2) = t.val / 80 ∧ win0_0.index t (1 : Fin 2) = t.val % 80
    ∧ win0_1.index t (0 : Fin 2) = t.val / 80 ∧ win0_1.index t (1 : Fin 2) = t.val % 80
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 80 ∧ win0_7.index t (1 : Fin 2) = 0
    ∧ k0_off1 (grid0.coords t) (0 : Fin 2) = 512 * (t.val % 80) ∧ k0_off1 (grid0.coords t) (1 : Fin 2) = 0 :=
  (by decide +kernel : ∀ t : Fin grid0.N, _)

theorem lt_320 (t : Fin cfg0.N) : t.val < 320 := lt_of_lt_of_eq t.isLt (show cfg0.N = 320 from N_0)

/-! ## The arrays the host operations before the region leave -/

theorem V_wT (c : Dev nD) : (V m c main_v1 : Vec Ideal S40960x256 .bf16)
    = truncf (F := Ideal) (φ := .f32) .bf16 (transpose S40960x256 [1, 0] (W m c) transposes_S256x40960_S40960x256_1_0) bitsLt_bf16_f32 := by
  dsimp only [Gen.V, Gen.hostOps0]; after_results <;> rfl

theorem V_bias (c : Dev nD) : (V m c main_v2 : Vec Ideal S1x256 .f32)
    = shapeCast S1x256 (Bias m c) shapeCasts_S256_S1x256 := by
  dsimp only [Gen.V, Gen.hostOps0]; after_results <;> rfl

theorem V_ow_lo (c : Dev nD) : (V m c main_v3 : Vec Ideal S1x256 .f32)
    = extractStridedSlice S1x256 ![0, 0] (OW m c) slices_S1x512_S1x256_0_0 := by
  dsimp only [Gen.V, Gen.hostOps0]; after_results <;> rfl

theorem V_ow_hi (c : Dev nD) : (V m c main_v4 : Vec Ideal S1x256 .f32)
    = extractStridedSlice S1x256 ![0, 256] (OW m c) slices_S1x512_S1x256_0_256 := by
  dsimp only [Gen.V, Gen.hostOps0]; after_results <;> rfl

theorem V_ob (c : Dev nD) : (V m c main_v5 : Vec Ideal S1x1 .f32)
    = shapeCast S1x1 (OB m c) shapeCasts_S1_S1x1 := by
  dsimp only [Gen.V, Gen.hostOps0]; after_results <;> rfl

/-! ## The blocks at a point -/

/-- The first feature window at point `t`. -/
theorem feat0 (c : Dev nD) (t : Fin cfg0.N) (r : Fin 1024) (j : Fin 512) :
    (iblk m c 0 t : Vec Ideal S1024x512 .f32) (ix2 r j)
      = Cert.Spec.at2 (X0 m c) (1024 * (t.val / 80) + r.val) (512 * (t.val % 80) + j.val) := by
  obtain ⟨e0, e1, -⟩ := idx_facts t
  have hN := lt_320 t
  rw [Cert.Spec.at2_of_lt _ _ _ (by omega) (by omega)]
  unfold iblk
  rw [View.read_apply]
  show V m c main_arg0 _ = _
  rw [V_main_arg0]
  refine congrArg (X0 m c) ?_
  funext a; apply Fin.ext
  match a with
  | ⟨0, _⟩ => show win0_0.index t (0 : Fin 2) * 1024 + 1 * r.val = 1024 * (t.val / 80) + r.val; rw [e0]; omega
  | ⟨1, _⟩ => show win0_0.index t (1 : Fin 2) * 512 + 1 * j.val = 512 * (t.val % 80) + j.val; rw [e1]; omega

/-- The second feature window at point `t`. -/
theorem feat1 (c : Dev nD) (t : Fin cfg0.N) (r : Fin 1024) (j : Fin 512) :
    (iblk m c 1 t : Vec Ideal S1024x512 .f32) (ix2 r j)
      = Cert.Spec.at2 (X1 m c) (1024 * (t.val / 80) + r.val) (512 * (t.val % 80) + j.val) := by
  obtain ⟨-, -, e0, e1, -⟩ := idx_facts t
  have hN := lt_320 t
  rw [Cert.Spec.at2_of_lt _ _ _ (by omega) (by omega)]
  unfold iblk
  rw [View.read_apply]
  show V m c main_arg1 _ = _
  rw [V_main_arg1]
  refine congrArg (X1 m c) ?_
  funext a; apply Fin.ext
  match a with
  | ⟨0, _⟩ => show win0_1.index t (0 : Fin 2) * 1024 + 1 * r.val = 1024 * (t.val / 80) + r.val; rw [e0]; omega
  | ⟨1, _⟩ => show win0_1.index t (1 : Fin 2) * 512 + 1 * j.val = 512 * (t.val % 80) + j.val; rw [e1]; omega

/-- The slab of transposed weights the point multiplies by. -/
theorem slab_read (c : Dev nD) (t : Fin cfg0.N) (j : Fin 512) (h : Fin 256) :
    Cert.KernelIdeal.Pieces.slab (grid0.coords t) (iblk m c 2 t : Vec Ideal S40960x256 .bf16) (ix2 j h)
      = Cert.Spec.at2 (W m c) h.val (512 * (t.val % 80) + j.val) := by
  obtain ⟨-, -, -, -, e0, e1, -, -, -, -, -, -, -, -, -, -, o0, o1⟩ := idx_facts t
  have hN := lt_320 t
  have hj : 512 * (t.val % 80) + j.val < 40960 := by omega
  rw [Cert.Spec.at2_of_lt _ _ _ h.isLt hj]
  show (iblk m c 2 t : Vec Ideal S40960x256 .bf16)
    ((Rect.unit (s := S40960x256) (k0_off1 (grid0.coords t)) S512x256.size (k0_off1_inb (grid0.coords t))).idx (ix2 j h)) = _
  unfold iblk
  rw [View.read_apply]
  show (V m c main_v1 : Vec Ideal S40960x256 .bf16) _ = _
  rw [V_wT]
  refine Eq.trans (congrArg (transpose S40960x256 [1, 0] (W m c) transposes_S256x40960_S40960x256_1_0) ?_)
    (transpose_ix2_apply (W m c) transposes_S256x40960_S40960x256_1_0 ⟨512 * (t.val % 80) + j.val, hj⟩ h)
  funext a; apply Fin.ext
  match a with
  | ⟨0, _⟩ =>
    show win0_2.index t (0 : Fin 2) * 40960 + 1 * (k0_off1 (grid0.coords t) (0 : Fin 2) + 1 * j.val) = 512 * (t.val % 80) + j.val
    rw [e0, o0]; omega
  | ⟨1, _⟩ =>
    show win0_2.index t (1 : Fin 2) * 256 + 1 * (k0_off1 (grid0.coords t) (1 : Fin 2) + 1 * h.val) = h.val
    rw [e1, o1]; omega

/-- The layer's bias row. -/
theorem bias_read (c : Dev nD) (t : Fin cfg0.N) (h : Fin 256) :
    (iblk m c 3 t : Vec Ideal S1x256 .f32) (ix2 (0 : Fin 1) h) = Bias m c (ix1 h) := by
  obtain ⟨-, -, -, -, -, -, e0, e1, -⟩ := idx_facts t
  unfold iblk
  rw [View.read_apply]
  show (V m c main_v2 : Vec Ideal S1x256 .f32) _ = _
  rw [V_bias]
  refine Eq.trans (congrArg (shapeCast S1x256 (Bias m c) shapeCasts_S256_S1x256) ?_)
    (shapeCast_a_1a_apply (Bias m c) shapeCasts_S256_S1x256 (0 : Fin 1) h)
  funext a; apply Fin.ext
  match a with
  | ⟨0, _⟩ => show win0_3.index t (0 : Fin 2) * 1 + 1 * 0 = 0; rw [e0]
  | ⟨1, _⟩ => show win0_3.index t (1 : Fin 2) * 256 + 1 * h.val = h.val; rw [e1]; omega

/-- The first half of the output weights' row. -/
theorem ow_lo_read (c : Dev nD) (t : Fin cfg0.N) (h : Fin 256) :
    (iblk m c 4 t : Vec Ideal S1x256 .f32) (ix2 (0 : Fin 1) h)
      = OW m c (ix2 (0 : Fin 1) ⟨h.val, by have := h.isLt; omega⟩) := by
  obtain ⟨-, -, -, -, -, -, -, -, e0, e1, -⟩ := idx_facts t
  unfold iblk
  rw [View.read_apply]
  show (V m c main_v3 : Vec Ideal S1x256 .f32) _ = _
  rw [V_ow_lo]
  refine Eq.trans (congrArg (extractStridedSlice S1x256 ![0, 0] (OW m c) slices_S1x512_S1x256_0_0) ?_)
    (slice2_axis1_apply 0 (OW m c) slices_S1x512_S1x256_0_0 (0 : Fin 1) h ⟨h.val, by have := h.isLt; omega⟩ (by simp))
  funext a; apply Fin.ext
  match a with
  | ⟨0, _⟩ => show win0_4.index t (0 : Fin 2) * 1 + 1 * 0 = 0; rw [e0]
  | ⟨1, _⟩ => show win0_4.index t (1 : Fin 2) * 256 + 1 * h.val = h.val; rw [e1]; omega

/-- The second half of the output weights' row. -/
theorem ow_hi_read (c : Dev nD) (t : Fin cfg0.N) (h : Fin 256) :
    (iblk m c 5 t : Vec Ideal S1x256 .f32) (ix2 (0 : Fin 1) h)
      = OW m c (ix2 (0 : Fin 1) ⟨256 + h.val, by have := h.isLt; omega⟩) := by
  obtain ⟨-, -, -, -, -, -, -, -, -, -, e0, e1, -⟩ := idx_facts t
  unfold iblk
  rw [View.read_apply]
  show (V m c main_v4 : Vec Ideal S1x256 .f32) _ = _
  rw [V_ow_hi]
  refine Eq.trans (congrArg (extractStridedSlice S1x256 ![0, 256] (OW m c) slices_S1x512_S1x256_0_256) ?_)
    (slice2_axis1_apply 256 (OW m c) slices_S1x512_S1x256_0_256 (0 : Fin 1) h ⟨256 + h.val, by have := h.isLt; omega⟩ rfl)
  funext a; apply Fin.ext
  match a with
  | ⟨0, _⟩ => show win0_5.index t (0 : Fin 2) * 1 + 1 * 0 = 0; rw [e0]
  | ⟨1, _⟩ => show win0_5.index t (1 : Fin 2) * 256 + 1 * h.val = h.val; rw [e1]; omega

/-- The output bias. -/
theorem ob_read (c : Dev nD) (t : Fin cfg0.N) :
    (iblk m c 6 t : Vec Ideal S1x1 .f32) (ix2 (0 : Fin 1) (0 : Fin 1)) = OB m c (ix1 (0 : Fin 1)) := by
  obtain ⟨-, -, -, -, -, -, -, -, -, -, -, -, e0, e1, -⟩ := idx_facts t
  unfold iblk
  rw [View.read_apply]
  show (V m c main_v5 : Vec Ideal S1x1 .f32) _ = _
  rw [V_ob]
  refine Eq.trans (congrArg (shapeCast S1x1 (OB m c) shapeCasts_S1_S1x1) ?_)
    (shapeCast_a_1a_apply (OB m c) shapeCasts_S1_S1x1 (0 : Fin 1) (0 : Fin 1))
  funext a; apply Fin.ext
  match a with
  | ⟨0, _⟩ => show win0_6.index t (0 : Fin 2) * 1 + 1 * 0 = 0; rw [e0]
  | ⟨1, _⟩ => show win0_6.index t (1 : Fin 2) * 1 + 1 * 0 = 0; rw [e1]

end Cert.KernelIdeal.Windows

end
-- ==== Proof.Running.lean ====
/-
  The two running blocks, and the output block, as functions of the argument arrays.

  Point number t of the grid adds to entry (r, h) of a running block the sum, over its 512 features j, of
  x (1024 (t / 80) + r, 512 (t % 80) + j) · w (h, 512 (t % 80) + j): its "addend". A row of the grid is the 80 points
  80 q … 80 q + 79; the first resets the block to zero before adding, every later one adds to what the point before
  left. So after point t the block holds 0 plus the sum of the addends of points 80 (t / 80) … t. After the row's last
  point that is the whole linear layer for the 1024 batch rows of the tile (the sum over 40960 features taken 512 at a
  time), and the output block the last point stores is the specified result for those rows.
-/
import proofs.«105598_j42958262895064_2_alg».proof.Proof.Gen.KernelIdeal.Value
import proofs.«105598_j42958262895064_2_alg».proof.Proof.Pieces
import proofs.«105598_j42958262895064_2_alg».proof.Proof.PayIdeal
import proofs.«105598_j42958262895064_2_alg».proof.Proof.Windows
import proofs.«105598_j42958262895064_2_alg».proof.Proof.Spec
import Idealize.ShloMosaic.Lib.ValueIdx
import Idealize.ShloMosaic.Lib.Pipeline.Value

noncomputable section

open scoped BigOperators

open Idealize.ShloMosaic Idealize.ShloMosaic.TcCoe Idealize.SL.Sem

namespace Cert.KernelIdeal.Running

open Cert.KernelIdeal Cert.KernelIdeal.Gen Cert.KernelIdeal.Value Cert.KernelIdeal.Windows Idealize.ShloMosaic.ValueIdx

variable (m : (ℓ : Loc nD τ sig) → Buf (Elt Ideal) ℓ)

/-- Point `n`'s addend to entry `y` of the first running block. -/
def add0 (c : Dev nD) (n : ℕ) (y : S1024x256.Idx) : EReal :=
  ∑ j : Fin 512, Cert.Spec.at2 (X0 m c) (1024 * (n / 80) + (y 0).val) (512 * (n % 80) + j.val)
    * Cert.Spec.at2 (W m c) (y 1).val (512 * (n % 80) + j.val)

/-- Point `n`'s addend to entry `y` of the second running block. -/
def add1 (c : Dev nD) (n : ℕ) (y : S1024x256.Idx) : EReal :=
  ∑ j : Fin 512, Cert.Spec.at2 (X1 m c) (1024 * (n / 80) + (y 0).val) (512 * (n % 80) + j.val)
    * Cert.Spec.at2 (W m c) (y 1).val (512 * (n % 80) + j.val)

/-- One step at point `t`, first block: what was there plus the point's addend. -/
theorem step0 (c : Dev nD) (t : Fin cfg0.N) (acc : Vec Ideal S1024x256 .f32) (y : S1024x256.Idx) :
    k0_pay4 (F := Ideal) (iblk m c 0 t) (Cert.KernelIdeal.Pieces.slab (grid0.coords t) (iblk m c 2 t)) acc y
      = acc y + add0 m c t.val y := by
  obtain ⟨r, h, rfl⟩ : ∃ (r : Fin 1024) (h : Fin 256), y = ix2 r h := ⟨y 0, y 1, eq_ix2 y⟩
  refine (Cert.KernelIdeal.PayIdeal.step_first (iblk m c 0 t) (Cert.KernelIdeal.Pieces.slab (grid0.coords t) (iblk m c 2 t)) acc r h).trans ?_
  unfold add0
  refine congrArg (fun z => acc (ix2 r h) + z) (Finset.sum_congr rfl fun j _ => ?_)
  rw [feat0 m c t r j, slab_read m c t j h]

/-- One step at point `t`, second block. -/
theorem step1 (c : Dev nD) (t : Fin cfg0.N) (acc : Vec Ideal S1024x256 .f32) (y : S1024x256.Idx) :
    k0_pay5 (F := Ideal) (iblk m c 1 t) (Cert.KernelIdeal.Pieces.slab (grid0.coords t) (iblk m c 2 t)) acc y
      = acc y + add1 m c t.val y := by
  obtain ⟨r, h, rfl⟩ : ∃ (r : Fin 1024) (h : Fin 256), y = ix2 r h := ⟨y 0, y 1, eq_ix2 y⟩
  refine (Cert.KernelIdeal.PayIdeal.step_second (iblk m c 1 t) (Cert.KernelIdeal.Pieces.slab (grid0.coords t) (iblk m c 2 t)) acc r h).trans ?_
  unfold add1
  refine congrArg (fun z => acc (ix2 r h) + z) (Finset.sum_congr rfl fun j _ => ?_)
  rw [feat1 m c t r j, slab_read m c t j h]

/-- The first point of a row leaves, in running block 0, zero plus its own addend. -/
theorem first0 (c : Dev nD) (n : ℕ) (hb : n < cfg0.N) (h0 : n % 80 = 0) (acc : Vec Ideal S1024x256 .f32) (y : S1024x256.Idx) :
    scAt0_0 m c n hb acc y = 0 + add0 m c n y := by
  have hN : n < 320 := lt_of_lt_of_eq hb (show cfg0.N = 320 from N_0)
  have h1 : ¬n % 80 = 79 := by omega
  unfold scAt0_0
  rw [dif_pos h0, dif_neg h1]
  refine (congrFun (Cert.KernelIdeal.Pieces.first_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) ((hcond0_0 (⟨n, hb⟩ : Fin cfg0.N)).mpr h0) (fun hh => h1 ((hcond0_1 (⟨n, hb⟩ : Fin cfg0.N)).mp hh))) y).trans ?_
  refine (step0 m c (⟨n, hb⟩ : Fin cfg0.N) _ y).trans ?_
  rw [Cert.KernelIdeal.PayIdeal.zero_first]

/-- Every later point of the row adds its own addend to what the point before left in running block 0. -/
theorem later0 (c : Dev nD) (n : ℕ) (hb : n < cfg0.N) (h0 : ¬n % 80 = 0) (acc : Vec Ideal S1024x256 .f32) (y : S1024x256.Idx) :
    scAt0_0 m c n hb acc y = acc y + add0 m c n y := by
  unfold scAt0_0
  rw [dif_neg h0]
  by_cases h1 : n % 80 = 79
  · rw [dif_pos h1]
    refine (congrFun (Cert.KernelIdeal.Pieces.last_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _ (fun hh => h0 ((hcond0_0 (⟨n, hb⟩ : Fin cfg0.N)).mp hh)) ((hcond0_1 (⟨n, hb⟩ : Fin cfg0.N)).mpr h1)) y).trans ?_
    exact step0 m c (⟨n, hb⟩ : Fin cfg0.N) acc y
  · rw [dif_neg h1]
    refine (congrFun (Cert.KernelIdeal.Pieces.mid_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _ (fun hh => h0 ((hcond0_0 (⟨n, hb⟩ : Fin cfg0.N)).mp hh)) (fun hh => h1 ((hcond0_1 (⟨n, hb⟩ : Fin cfg0.N)).mp hh))) y).trans ?_
    exact step0 m c (⟨n, hb⟩ : Fin cfg0.N) acc y

/-- RUNNING BLOCK 0 AFTER POINT `t`: the sum of the addends of the row's points up to `t`. -/
theorem run0 (c : Dev nD) (t : Fin cfg0.N) (y : S1024x256.Idx) :
    (outsAt0 m c t.val t.isLt).2.1 y = 0 + ∑ s ∈ Finset.range (t.val % 80 + 1), add0 m c (80 * (t.val / 80) + s) y := by
  have hN := lt_320 t
  rw [Cert.KernelIdeal.Value.soutsAt0_0_eq m c t]
  exact Pipeline.accAt_add_apply (ι := S1024x256.Idx) (β := EReal)
    (fun n h => scAt0_0 m c n h (VS0_0.read (Elt Ideal) VS0_0.junk)) (scAt0_0 m c)
    (fun _ => 0) (add0 m c) (80 * (t.val / 80)) 79
    (fun h i => first0 m c _ h (by omega) _ i)
    (fun n h acc i hlt hle => later0 m c n h (by omega) acc i)
    (t.val % 80) (by omega) _ y

/-- The first point of a row leaves, in running block 1, zero plus its own addend. -/
theorem first1 (c : Dev nD) (n : ℕ) (hb : n < cfg0.N) (h0 : n % 80 = 0) (acc : Vec Ideal S1024x256 .f32) (y : S1024x256.Idx) :
    scAt0_1 m c n hb acc y = 0 + add1 m c n y := by
  have hN : n < 320 := lt_of_lt_of_eq hb (show cfg0.N = 320 from N_0)
  have h1 : ¬n % 80 = 79 := by omega
  unfold scAt0_1
  rw [dif_pos h0, dif_neg h1]
  refine (congrFun (Cert.KernelIdeal.Pieces.first_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) ((hcond0_0 (⟨n, hb⟩ : Fin cfg0.N)).mpr h0) (fun hh => h1 ((hcond0_1 (⟨n, hb⟩ : Fin cfg0.N)).mp hh))) y).trans ?_
  refine (step1 m c (⟨n, hb⟩ : Fin cfg0.N) _ y).trans ?_
  rw [Cert.KernelIdeal.PayIdeal.zero_second]

/-- Every later point of the row adds its own addend to what the point before left in running block 1. -/
theorem later1 (c : Dev nD) (n : ℕ) (hb : n < cfg0.N) (h0 : ¬n % 80 = 0) (acc : Vec Ideal S1024x256 .f32) (y : S1024x256.Idx) :
    scAt0_1 m c n hb acc y = acc y + add1 m c n y := by
  unfold scAt0_1
  rw [dif_neg h0]
  by_cases h1 : n % 80 = 79
  · rw [dif_pos h1]
    refine (congrFun (Cert.KernelIdeal.Pieces.last_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _ (fun hh => h0 ((hcond0_0 (⟨n, hb⟩ : Fin cfg0.N)).mp hh)) ((hcond0_1 (⟨n, hb⟩ : Fin cfg0.N)).mpr h1)) y).trans ?_
    exact step1 m c (⟨n, hb⟩ : Fin cfg0.N) acc y
  · rw [dif_neg h1]
    refine (congrFun (Cert.KernelIdeal.Pieces.mid_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _ (fun hh => h0 ((hcond0_0 (⟨n, hb⟩ : Fin cfg0.N)).mp hh)) (fun hh => h1 ((hcond0_1 (⟨n, hb⟩ : Fin cfg0.N)).mp hh))) y).trans ?_
    exact step1 m c (⟨n, hb⟩ : Fin cfg0.N) acc y

/-- RUNNING BLOCK 1 AFTER POINT `t`: the sum of the addends of the row's points up to `t`. -/
theorem run1 (c : Dev nD) (t : Fin cfg0.N) (y : S1024x256.Idx) :
    (outsAt0 m c t.val t.isLt).2.2 y = 0 + ∑ s ∈ Finset.range (t.val % 80 + 1), add1 m c (80 * (t.val / 80) + s) y := by
  have hN := lt_320 t
  rw [Cert.KernelIdeal.Value.soutsAt0_1_eq m c t]
  exact Pipeline.accAt_add_apply (ι := S1024x256.Idx) (β := EReal)
    (fun n h => scAt0_1 m c n h (VS0_1.read (Elt Ideal) VS0_1.junk)) (scAt0_1 m c)
    (fun _ => 0) (add1 m c) (80 * (t.val / 80)) 79
    (fun h i => first1 m c _ h (by omega) _ i)
    (fun n h acc i hlt hle => later1 m c n h (by omega) acc i)
    (t.val % 80) (by omega) _ y

/-- After a row's last point a running block holds the whole linear layer for the tile's rows. -/
theorem full0 (c : Dev nD) (t : Fin cfg0.N) (h1 : t.val % 80 = 79) (r : Fin 1024) (h : Fin 256)
    (hr : 1024 * (t.val / 80) + r.val < 4096) :
    (outsAt0 m c t.val t.isLt).2.1 (ix2 r h) = Cert.Spec.lin (X0 m c) (W m c) ⟨1024 * (t.val / 80) + r.val, hr⟩ h := by
  rw [run0 m c t (ix2 r h), zero_add, Cert.Spec.lin_tiles, h1]
  refine Finset.sum_congr rfl fun s hs => ?_
  have hs' : s < 80 := Finset.mem_range.mp hs
  have e1 : (80 * (t.val / 80) + s) / 80 = t.val / 80 := by omega
  have e2 : (80 * (t.val / 80) + s) % 80 = s := by omega
  unfold add0
  rw [e1, e2]

theorem full1 (c : Dev nD) (t : Fin cfg0.N) (h1 : t.val % 80 = 79) (r : Fin 1024) (h : Fin 256)
    (hr : 1024 * (t.val / 80) + r.val < 4096) :
    (outsAt0 m c t.val t.isLt).2.2 (ix2 r h) = Cert.Spec.lin (X1 m c) (W m c) ⟨1024 * (t.val / 80) + r.val, hr⟩ h := by
  rw [run1 m c t (ix2 r h), zero_add, Cert.Spec.lin_tiles, h1]
  refine Finset.sum_congr rfl fun s hs => ?_
  have hs' : s < 80 := Finset.mem_range.mp hs
  have e1 : (80 * (t.val / 80) + s) / 80 = t.val / 80 := by omega
  have e2 : (80 * (t.val / 80) + s) % 80 = s := by omega
  unfold add1
  rw [e1, e2]

/-- What a row's last point stores in the output block: the epilogue of the two blocks as that point leaves them. -/
theorem out_last (c : Dev nD) (t : Fin cfg0.N) (h1 : t.val % 80 = 79) :
    (outsAt0 m c t.val t.isLt).1
      = k0_pay6 (F := Ideal) (iblk m c 3 t) ((outsAt0 m c t.val t.isLt).2.1) ((outsAt0 m c t.val t.isLt).2.2)
          (iblk m c 4 t) (iblk m c 5 t) (iblk m c 6 t) := by
  have hN := lt_320 t
  have h0 : ¬t.val % 80 = 0 := by omega
  rw [outsAt0_C m c t h0 h1]
  dsimp only
  refine (Cert.KernelIdeal.Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) _ _ (fun hh => h0 ((hcond0_0 t).mp hh)) ((hcond0_1 t).mpr h1)).trans ?_
  refine congrArg₂ (fun a b => k0_pay6 (F := Ideal) (iblk m c 3 t) a b (iblk m c 4 t) (iblk m c 5 t) (iblk m c 6 t)) ?_ ?_
  · exact (Cert.KernelIdeal.Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) _ _ (fun hh => h0 ((hcond0_0 t).mp hh)) ((hcond0_1 t).mpr h1)).symm
  · exact (Cert.KernelIdeal.Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) _ _ (fun hh => h0 ((hcond0_0 t).mp hh)) ((hcond0_1 t).mpr h1)).symm

/-- THE OUTPUT BLOCK a row's last point stores, at its row `r`: the specified result for batch row `1024 (t / 80) + r`. -/
theorem out_value (c : Dev nD) (t : Fin cfg0.N) (h1 : t.val % 80 = 79) (r : Fin 1024) (u : Fin 1)
    (hr : 1024 * (t.val / 80) + r.val < 4096) :
    (outsAt0 m c t.val t.isLt).1 (ix2 r u)
      = Cert.Spec.Gat (X0 m c) (X1 m c) (W m c) (Bias m c) (OW m c) (OB m c) ⟨1024 * (t.val / 80) + r.val, hr⟩ := by
  rw [out_last m c t h1]
  refine (Cert.KernelIdeal.PayIdeal.epilogue (iblk m c 3 t) _ _ (iblk m c 4 t) (iblk m c 5 t) (iblk m c 6 t) r u).trans ?_
  unfold Cert.Spec.Gat
  refine congrArg₂ (· + ·) (congrArg₂ (· + ·) (Finset.sum_congr rfl fun h _ => ?_) (Finset.sum_congr rfl fun h _ => ?_))
    (ob_read m c t)
  · rw [bias_read m c t h, ow_lo_read m c t h, full0 m c t h1 r h hr]
    rfl
  · rw [bias_read m c t h, ow_hi_read m c t h, full1 m c t h1 r h hr]
    rfl

end Cert.KernelIdeal.Running

end
-- ==== Proof.Final.lean ====
/-
  The kernel's result array after the run.

  The output window's block at point t is rows 1024 (t / 80) … + 1023 of the result column, and it is written back at
  the last point of each row of the grid, t % 80 = 79, only. What is written there is the specified result for those
  rows; the four written blocks are the four quarters of the column, so every row is covered (row b by the last point of
  grid row b / 1024), and the array ends holding the specified function of the argument arrays.
-/
import proofs.«105598_j42958262895064_2_alg».proof.Proof.Gen.KernelIdeal.Value
import proofs.«105598_j42958262895064_2_alg».proof.Proof.Running
import proofs.«105598_j42958262895064_2_alg».proof.Proof.Windows
import proofs.«105598_j42958262895064_2_alg».proof.Proof.Spec
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value Cert.KernelIdeal.Windows Cert.KernelIdeal.Running
  Idealize.ShloMosaic.ValueIdx

variable (m : (ℓ : Loc nD τ sig) → Buf (Elt Ideal) ℓ) (ρ : Dev nD → PrngReg)

/-- The result column on core `c`: the specified function of the core's argument arrays. -/
abbrev result (c : Dev nD) : Buf (Elt Ideal) ((c : Thread nD τ).loc main_v6) :=
  Cert.Spec.G (X0 m c) (X1 m c) (W m c) (Bias m c) (OW m c) (OB m c)

/-- What a write-back writes is its block of the result column. -/
theorem flushed_eq (c : Dev nD) (t : Fin cfg0.N) (hf : (cfg0.win 7).flush t = true) :
    (dats m 0 c).flushed 7 t = ((cfg0.win 7).blk t).view.read (Elt Ideal) (result m c) := by
  have h1 : t.val % 80 = 79 := (flush0_7 t).mp hf
  have hN := lt_320 t
  obtain ⟨-, -, -, -, -, -, -, -, -, -, -, -, -, -, e0, e1, -⟩ := idx_facts t
  rw [Cert.KernelIdeal.Value.flushed7]
  funext y
  obtain ⟨r, u, rfl⟩ : ∃ (r : Fin 1024) (u : Fin 1), y = ix2 r u := ⟨y 0, y 1, eq_ix2 y⟩
  have hr : 1024 * (t.val / 80) + r.val < 4096 := by omega
  show (outsAt0 m c t.val t.isLt).1 (ix2 r u) = result m c (((cfg0.win 7).blk t).view.emb (ix2 r u))
  rw [out_value m c t h1 r u hr]
  show _ = Cert.Spec.Gat (X0 m c) (X1 m c) (W m c) (Bias m c) (OW m c) (OB m c) ((((cfg0.win 7).blk t).view.emb (ix2 r u)) 0)
  refine congrArg (Cert.Spec.Gat (X0 m c) (X1 m c) (W m c) (Bias m c) (OW m c) (OB m c)) (Fin.ext ?_)
  show 1024 * (t.val / 80) + r.val = win0_7.index t (0 : Fin 2) * 1024 + 1 * r.val
  rw [e0]; omega

/-- Every row of the column is in the block some write-back writes. -/
theorem cover (i : S4096x1.Idx) :
    ∃ t : Fin cfg0.N, (cfg0.win 7).flush t = true ∧ i ∈ ((cfg0.win 7).blk t).view.set := by
  have h0 : (i 0).val < 4096 := (i 0).isLt
  have h1 : (i 1).val < 1 := (i 1).isLt
  have hN : cfg0.N = 320 := N_0
  obtain ⟨t, ht⟩ : ∃ t : Fin cfg0.N, t.val = 80 * ((i 0).val / 1024) + 79 := ⟨⟨80 * ((i 0).val / 1024) + 79, by rw [hN]; omega⟩, rfl⟩
  obtain ⟨-, -, -, -, -, -, -, -, -, -, -, -, -, -, e0, e1, -⟩ := idx_facts t
  refine ⟨t, (flush0_7 t).mpr (by rw [ht]; omega), ?_⟩
  show i ∈ ((View.whole main_v6).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 1 ≤ (i 1).val ∧ (i 1).val < win0_7.index t (1 : Fin 2) * 1 + 1
    rw [e1]; omega

/-- THE RESULT ARRAY after the run. -/
theorem final (c : Dev nD) : (dats m 0 c).arrAt 7 cfg0.N = result m c :=
  (dats m 0 c).arrAt_eq_of_cover 7 (result m c) (flushed_eq m c) cover

/-- The run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Final

end
-- ==== Proof.RefSpec.lean ====
/-
  The reference computes the specified function.

  Read one operation at a time: each hidden value is the clipped linear layer (a `dot_general` over the feature axis
  against the transposed weights, plus the bias spread over the rows); the two blocks of hidden values are joined along
  the second axis, so column k of the joined block is column k of the first for k < 256 and column k - 256 of the second
  otherwise; the last `dot_general`, against the transposed row of output weights, is then a sum over 512 columns, which
  is the sum over the first 256 plus the sum over the last 256; and the output bias is added.
-/
import proofs.«105598_j42958262895064_2_alg».proof.Proof.Gen.ReferenceIdeal.Read
import proofs.«105598_j42958262895064_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefSpec

open Cert.ReferenceIdeal Cert.ReferenceIdeal.Read Idealize.ShloMosaic Idealize.ShloMosaic.ValueIdx

variable (x0 x1 : (⟨S4096x40960, .f32⟩ : BufTy).Contents (Elt Ideal)) (x2 : (⟨S256x40960, .f32⟩ : BufTy).Contents (Elt Ideal))
  (x3 : (⟨S256, .f32⟩ : BufTy).Contents (Elt Ideal)) (x4 : (⟨S1x512, .f32⟩ : BufTy).Contents (Elt Ideal))
  (x5 : (⟨S1, .f32⟩ : BufTy).Contents (Elt Ideal))

/-! The index functions of the stages, at indices given by coordinates. -/

theorem lhs_first (b : Fin 4096) (h : Fin 256) (k : Fin 40960) : lidx_main_v1 (ix2 b h) k = ix2 b k :=
  funext fun a => Fin.ext (by match a with | ⟨0, _⟩ => rfl | ⟨1, _⟩ => rfl)
theorem rhs_first (b : Fin 4096) (h : Fin 256) (k : Fin 40960) : idx_main_v0 (ridx_main_v1 (ix2 b h) k) = ix2 h k :=
  funext fun a => Fin.ext (by match a with | ⟨0, _⟩ => rfl | ⟨1, _⟩ => rfl)
theorem bias_first (b : Fin 4096) (h : Fin 256) : idx_main_v2 (idx_main_v3 (ix2 b h)) = ix1 h :=
  funext fun a => Fin.ext (by match a with | ⟨0, _⟩ => rfl)
theorem lhs_second (b : Fin 4096) (h : Fin 256) (k : Fin 40960) : lidx_main_v7 (ix2 b h) k = ix2 b k :=
  funext fun a => Fin.ext (by match a with | ⟨0, _⟩ => rfl | ⟨1, _⟩ => rfl)
theorem rhs_second (b : Fin 4096) (h : Fin 256) (k : Fin 40960) : idx_main_v6 (ridx_main_v7 (ix2 b h) k) = ix2 h k :=
  funext fun a => Fin.ext (by match a with | ⟨0, _⟩ => rfl | ⟨1, _⟩ => rfl)
theorem bias_second (b : Fin 4096) (h : Fin 256) : idx_main_v8 (idx_main_v9 (ix2 b h)) = ix1 h :=
  funext fun a => Fin.ext (by match a with | ⟨0, _⟩ => rfl)
theorem lhs_out (b : Fin 4096) (k : Fin 512) : lidx_main_v14 (ix2 b (0 : Fin 1)) k = ix2 b k :=
  funext fun a => Fin.ext (by match a with | ⟨0, _⟩ => rfl | ⟨1, _⟩ => rfl)
theorem rhs_out (b : Fin 4096) (k : Fin 512) : idx_main_v13 (ridx_main_v14 (ix2 b (0 : Fin 1)) k) = ix2 (0 : Fin 1) k :=
  funext fun a => Fin.ext (by match a with | ⟨0, _⟩ => rfl | ⟨1, _⟩ => rfl)
theorem bias_out (b : Fin 4096) : idx_main_v15 (idx_main_v16 (ix2 b (0 : Fin 1))) = ix1 (0 : Fin 1) :=
  funext fun a => Fin.ext (by match a with | ⟨0, _⟩ => rfl)

/-- A hidden value of the first feature matrix. -/
theorem hidden_first (b : Fin 4096) (h : Fin 256) :
    val_main_v5 (F := Ideal) x0 x2 x3 (ix2 b h) = Cert.Spec.hid x0 x2 x3 b h := by
  rw [val_main_v5_apply, val_main_call0_v4_apply, val_main_call0_v3_apply, val_main_cst_0_apply, val_main_call0_v2_apply,
    val_main_call0_v1_apply, val_main_call0_v0_apply, val_main_cst_apply, val_main_v4_apply, val_main_v1_apply,
    val_main_v3_apply, val_main_v2_apply]
  simp only [val_main_v0_apply, lhs_first, rhs_first, bias_first]
  rfl

/-- A hidden value of the second feature matrix. -/
theorem hidden_second (b : Fin 4096) (h : Fin 256) :
    val_main_v11 (F := Ideal) x1 x2 x3 (ix2 b h) = Cert.Spec.hid x1 x2 x3 b h := by
  rw [val_main_v11_apply, val_main_call1_v4_apply, val_main_call1_v3_apply, val_main_cst_2_apply, val_main_call1_v2_apply,
    val_main_call1_v1_apply, val_main_call1_v0_apply, val_main_cst_1_apply, val_main_v10_apply, val_main_v7_apply,
    val_main_v9_apply, val_main_v8_apply]
  simp only [val_main_v6_apply, lhs_second, rhs_second, bias_second]
  rfl

/-- The joined block at a column of its first half. -/
theorem joined_lo (b : Fin 4096) (h : Fin 256) :
    val_main_v12 (F := Ideal) x0 x1 x2 x3 (ix2 b ⟨h.val, by have := h.isLt; omega⟩) = Cert.Spec.hid x0 x2 x3 b h := by
  unfold val_main_v12
  refine (concatenate_pair_apply_left (t := S4096x512) (s₁ := S4096x256) (s₂ := S4096x256) (1 : Fin 2) _ _ _
    (ix2 b (⟨h.val, by have := h.isLt; omega⟩ : Fin 512) : S4096x512.Idx) rfl (ix2 b h)
    (fun d => by match d with | ⟨0, _⟩ => rfl | ⟨1, _⟩ => rfl)).trans ?_
  exact hidden_first x0 x2 x3 b h

/-- The joined block at a column of its second half. -/
theorem joined_hi (b : Fin 4096) (h : Fin 256) :
    val_main_v12 (F := Ideal) x0 x1 x2 x3 (ix2 b ⟨256 + h.val, by have := h.isLt; omega⟩) = Cert.Spec.hid x1 x2 x3 b h := by
  unfold val_main_v12
  refine (concatenate_pair_apply_right (t := S4096x512) (s₁ := S4096x256) (s₂ := S4096x256) (1 : Fin 2) _ _ _
    (ix2 b (⟨256 + h.val, by have := h.isLt; omega⟩ : Fin 512) : S4096x512.Idx) rfl rfl (ix2 b h)
    (fun d hd => by
      match d with
      | ⟨0, _⟩ => rfl
      | ⟨1, _⟩ => exact absurd rfl hd)
    (by show h.val + 256 = 256 + h.val; omega)).trans ?_
  exact hidden_second x1 x2 x3 b h

/-- THE REFERENCE'S RESULT is the specified function of the arguments. -/
theorem result_eq : val_main_v17 (F := Ideal) x0 x1 x2 x3 x4 x5 = Cert.Spec.G x0 x1 x2 x3 x4 x5 := by
  funext i
  obtain ⟨b, u, rfl⟩ : ∃ (b : Fin 4096) (u : Fin 1), i = ix2 b u := ⟨i 0, i 1, eq_ix2 i⟩
  have hu : u = 0 := Subsingleton.elim _ _
  subst hu
  rw [val_main_v17_apply, val_main_v14_apply, val_main_v16_apply, val_main_v15_apply, bias_out]
  simp only [val_main_v13_apply, lhs_out, rhs_out]
  unfold Cert.Spec.G Cert.Spec.Gat
  refine congrArg₂ (· + ·) ?_ rfl
  rw [Cert.Spec.sum_halves]
  refine congrArg₂ (· + ·) (Finset.sum_congr rfl fun h _ => ?_) (Finset.sum_congr rfl fun h _ => ?_)
  · rw [joined_lo]
  · rw [joined_hi]

end Cert.ReferenceIdeal.RefSpec

end
-- ==== Proof.lean ====
/-
  A two-branch clipped linear layer followed by a weighted row sum: the kernel against its reference, over the
  extended reals.

  Both programs compute, for each of 4096 batch rows b,

    out (b, 0) = (Σ_h clip (Σ_j x₀ (b, j) · w (h, j) + bias h) · ow (0, h)
                  + Σ_h clip (Σ_j x₁ (b, j) · w (h, j) + bias h) · ow (0, 256 + h)) + ob 0,

  with j over 40960 features, h over 256 hidden units and clip the clamp to [0, 1]. The kernel walks a 4 x 80 grid:
  it takes the features 512 at a time, adding each partial product into two running blocks that it resets at the
  first point of a grid row, and at the row's last point clips, weighs, sums and stores 1024 results; the reference
  takes each inner sum whole, joins the two clipped blocks side by side and takes one sum over the 512 joined columns.
  The two agree by regrouping finite sums (Spec.lean), which holds of the extended reals as it stands, so the
  precondition is never opened. The kernel rounds features and weights to a narrower format before multiplying; over
  the extended reals that is the identity, and the idealization rewrote nothing, so there is nothing to preserve.

  Modules: Spec (the function and the two regroupings); RefSpec (the reference computes it, stage by stage);
  Pieces (what a point's stores leave, as the body's payloads); PayIdeal (those payloads at an index);
  Windows (the input blocks at a point, in terms of the arguments); Running (the running blocks as sums over a grid
  row's points, and the stored block's value); Final (the result array after the run).
-/
import proofs.«105598_j42958262895064_2_alg».proof.Defs
import proofs.«105598_j42958262895064_2_alg».proof.Proof.Gen.Kernel
import proofs.«105598_j42958262895064_2_alg».proof.Proof.Gen.Kernel.Frame
import proofs.«105598_j42958262895064_2_alg».proof.Proof.Gen.KernelIdeal
import proofs.«105598_j42958262895064_2_alg».proof.Proof.Gen.KernelIdeal.Frame
import proofs.«105598_j42958262895064_2_alg».proof.Proof.Gen.KernelIdeal.Value
import proofs.«105598_j42958262895064_2_alg».proof.Proof.Gen.ReferenceIdeal
import proofs.«105598_j42958262895064_2_alg».proof.Proof.Gen.ReferenceIdeal.Run
import proofs.«105598_j42958262895064_2_alg».proof.Proof.Gen.ReferenceIdeal.Read
import proofs.«105598_j42958262895064_2_alg».proof.Proof.Gen.Pre_finite_inputs
import proofs.«105598_j42958262895064_2_alg».proof.Proof.Final
import proofs.«105598_j42958262895064_2_alg».proof.Proof.RefSpec

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: it runs, and no operation writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at the specified function of them. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefSpec.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
